-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S4096x16384 : Shape := ⟨2, ![4096, 16384]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x16384 : S_.BroadcastsInDim S4096x16384 (![] : Fin 0 → Fin S4096x16384.rank)
  reducesTo_S4096x16384_S_d0_1 : S4096x16384.ReducesTo [0, 1] S_

variable [Facts]

def fn_part1 {F : FTy → Type} [FloatOps F] (main_arg4 : FVec F S4096x16384 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x16384 .f32 := Host.absf main_arg4
  let main_cst_6 : FVec F S_ .f32 := constant S_ .f32 0x7F800000#32
  let main_v20 : FVec F S4096x16384 .f32 := broadcastInDim S4096x16384 ![] bcast_S_S4096x16384 main_cst_6
  let main_v21 : IVec S4096x16384 1 := cmpf .olt main_v19 main_v20
  let main_c_7 : IVec S_ 1 := constantI S_ 1 1#1
  let main_v22 : IVec S_ 1 := (fun x v => Host.reduce IntOp.andi x v reducesTo_S4096x16384_S_d0_1 h_S_) main_v21 main_c_7
  let main_v23 : IVec S_ 1 := andi main_v18 main_v22
  main_v23

def fn {F : FTy → Type} [FloatOps F] (main_arg0 : FVec F S4096x4096 .f32) (main_arg1 : FVec F S4096 .f32) (main_arg2 : FVec F S4096x16384 .f32) (main_arg3 : FVec F S4096 .f32) (main_arg4 : FVec F S4096x16384 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x16384 .f32 := Host.absf main_arg2
  let main_cst_2 : FVec F S_ .f32 := constant S_ .f32 0x7F800000#32
  let main_v10 : FVec F S4096x16384 .f32 := broadcastInDim S4096x16384 ![] bcast_S_S4096x16384 main_cst_2
  let main_v11 : IVec S4096x16384 1 := cmpf .olt main_v9 main_v10
  let main_c_3 : IVec S_ 1 := constantI S_ 1 1#1
  let main_v12 : IVec S_ 1 := (fun x v => Host.reduce IntOp.andi x v reducesTo_S4096x16384_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S4096x4096 : Shape := ⟨2, ![4096, 4096]⟩
abbrev S4096 : Shape := ⟨1, ![4096]⟩
abbrev S4096x16384 : Shape := ⟨2, ![4096, 16384]⟩
abbrev S_ : Shape := ⟨0, ![]⟩
abbrev S1x4096 : Shape := ⟨2, ![1, 4096]⟩
abbrev S1024x512 : Shape := ⟨2, ![1024, 512]⟩
abbrev S1x512 : Shape := ⟨2, ![1, 512]⟩
abbrev S512x1024 : Shape := ⟨2, ![512, 1024]⟩
abbrev S1024x1024 : Shape := ⟨2, ![1024, 1024]⟩

abbrev nBuf : Space → Nat
  | .hbm => 14
  | .vmem => 9
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x16384, .f32⟩
  | .hbm, ⟨3, _⟩ => ⟨S4096, .f32⟩
  | .hbm, ⟨4, _⟩ => ⟨S4096x16384, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S4096x16384, .f32⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S1x512, .f32⟩
  | .local _ .vmem, ⟨4, _⟩ => ⟨S512x1024, .f32⟩
  | .local _ .vmem, ⟨5, _⟩ => ⟨S512x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 8], ![false, false, false]⟩

def k0_cond2 (i : grid0.Coords) : BitVec 1 :=
  let arg2 : BitVec 32 := BitVec.ofNat 32 (i 2).val
  let c7_i32 : BitVec 32 := 7#32
  let v17 : BitVec 1 := Scalar.cmpi .eq arg2 c7_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S4096 : S_.BroadcastsInDim S4096 (![] : Fin 0 → Fin S4096.rank)
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x16384.size a
  hwx0_2 : ∀ i : grid0.Coords, EltTy.bits .f32 = 32 ∨ (Rect.block (s := S4096x16384) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x16384.size a
  hwx0_3 : ∀ i : grid0.Coords, EltTy.bits .f32 = 32 ∨ (Rect.block (s := S4096x16384) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S4096x16384 : Shape := ⟨2, ![4096, 16384]⟩
abbrev S_ : Shape := ⟨0, ![]⟩
abbrev S1x4096 : Shape := ⟨2, ![1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096, .f32⟩
  | .hbm, ⟨2, _⟩ => ⟨S4096x16384, .f32⟩
  | .hbm, ⟨3, _⟩ => ⟨S4096, .f32⟩
  | .hbm, ⟨4, _⟩ => ⟨S4096x16384, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_cst : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x16384_S4096x16384_1_0_0_1_n_n_wf : DotDims.WF S4096x4096 S4096x16384 S4096x16384 [1] [0] [0] [1] [] []

variable [Facts₀]

def dot_S4096x4096_S4096x16384_S4096x16384_1_0_0_1_n_n : DotDims S4096x4096 S4096x16384 S4096x16384 where
  lhsContracting := [1]
  rhsContracting := [0]
  lhsNonContracting := [0]
  rhsNonContracting := [1]
  lhsBatch := []
  rhsBatch := []
  wf := dot_S4096x4096_S4096x16384_S4096x16384_1_0_0_1_n_n_wf

class Facts : Prop extends Facts₀ where

variable [Facts]
-- ==== Proof.Pieces.lean ====
/-
  What one run of the kernel body leaves behind, case by case, as values.

  The body keeps a 1024×1024 accumulator in a scratch buffer across the eight grid points that share one output block.
  Write `step x0 x1 x2 v` for the block the body stores into the scratch: the accumulator `v` plus the product of the
  column-scaled left block with the right block (the skeleton's second payload), and `zero` for the block of zeros
  (its first payload). Then, whatever the float instance:
    * at the first point of the eight the body first stores `zero`, reads it back, and leaves `step x0 x1 x2 zero`;
    * at the middle points it leaves `step x0 x1 x2 v` over what the point before left, `v`;
    * at the last point it leaves the same in the scratch, and copies it, read back, into the output block.
  Each statement reads the stores the run found back through the whole-buffer rectangle at offset zero.
-/
import proofs.«146171_j49589692400414_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

/-- The offset of every load and store of the body: the origin. -/
theorem origin : (![0, 0] : Fin 2 → Nat) = fun _ => 0 := funext fun a => by fin_cases a <;> rfl

/-- First point of the eight: the scratch ends at one step over the zero block. -/
theorem scratch_first (c : Dev nD) (i : grid0.Coords) (a3 : Memref sig .tc .vmem S1024x512 .f32) (h3 : a3.IsWhole) (a4 : Memref sig .tc .vmem S1x512 .f32) (h4 : a4.IsWhole) (a5 : Memref sig .tc .vmem S512x1024 .f32) (h5 : a5.IsWhole) (a6 : Memref sig .tc .vmem S1024x1024 .f32) (h6 : a6.IsWhole) (a7 : Memref sig .tc .vmem S1024x1024 .f32) (h7 : a7.IsWhole) (hc0 : cond0_0 i) (hc1 : ¬cond0_1 i)
    (x0 : Vec F S1024x512 .f32) (x1 : Vec F S1x512 .f32) (x2 : Vec F S512x1024 .f32) :
    sout0_A_0 c i a3 h3 a4 h4 a5 h5 a6 h6 a7 h7 hc0 hc1 x0 x1 x2 = k0_pay2 x0 x1 x2 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) origin, View.readCov_unit_zero (S := S1024x1024) _ origin]
  simp only [View.readAt_eq_ld, h3.read_unread, h4.read_unread, h5.read_unread,
    View.ld_unit_zero (S := S1024x512) origin, View.ld_unit_zero (S := S1x512) origin,
    View.ld_unit_zero (S := S512x1024) origin]

/-- A middle point: the scratch ends at one step over what the point before left. -/
theorem scratch_middle (c : Dev nD) (i : grid0.Coords) (a3 : Memref sig .tc .vmem S1024x512 .f32) (h3 : a3.IsWhole) (a4 : Memref sig .tc .vmem S1x512 .f32) (h4 : a4.IsWhole) (a5 : Memref sig .tc .vmem S512x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : ¬cond0_1 i)
    (x0 : Vec F S1024x512 .f32) (x1 : Vec F S1x512 .f32) (x2 : Vec F S512x1024 .f32) (xs0 : Vec F S1024x1024 .f32) :
    sout0_B_0 c i a3 h3 a4 h4 a5 h5 a6 h6 a7 h7 hc0 hc1 x0 x1 x2 xs0 = k0_pay2 x0 x1 x2 xs0 := by
  unfold sout0_B_0
  rw [View.read_writes_eq_canon _ _ _ (scover0_B_0 c i a3 h3 a4 h4 a5 h5 a6 h6 a7 h7 hc0 hc1 x0 x1 x2 xs0)]
  unfold kernelRun0_B
  dsimp only
  rw [View.canon_unit_zero origin]
  simp only [View.readAt_eq_ld, h3.read_unread, h4.read_unread, h5.read_unread, h7.read_unread,
    View.ld_unit_zero (S := S1024x512) origin, View.ld_unit_zero (S := S1x512) origin,
    View.ld_unit_zero (S := S512x1024) origin, View.ld_unit_zero (S := S1024x1024) origin]

/-- The last point of the eight: the scratch ends at one step over what the point before left … -/
theorem scratch_last (c : Dev nD) (i : grid0.Coords) (a3 : Memref sig .tc .vmem S1024x512 .f32) (h3 : a3.IsWhole) (a4 : Memref sig .tc .vmem S1x512 .f32) (h4 : a4.IsWhole) (a5 : Memref sig .tc .vmem S512x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1x512 .f32) (x2 : Vec F S512x1024 .f32) (xs0 : Vec F S1024x1024 .f32) :
    sout0_C_0 c i a3 h3 a4 h4 a5 h5 a6 h6 a7 h7 hc0 hc1 x0 x1 x2 xs0 = k0_pay2 x0 x1 x2 xs0 := by
  unfold sout0_C_0
  rw [View.read_writes_eq_canon _ _ _ (scover0_C_0 c i a3 h3 a4 h4 a5 h5 a6 h6 a7 h7 hc0 hc1 x0 x1 x2 xs0)]
  unfold kernelRun0_C
  dsimp only
  sl_unfold_words
  rw [View.canon_unit_zero origin]
  simp only [View.readAt_eq_ld, h3.read_unread, h4.read_unread, h5.read_unread, h7.read_unread,
    View.ld_unit_zero (S := S1024x512) origin, View.ld_unit_zero (S := S1x512) origin,
    View.ld_unit_zero (S := S512x1024) origin, View.ld_unit_zero (S := S1024x1024) origin]

/-- … and the output block is that same block, read back from the scratch. -/
theorem output_last (c : Dev nD) (i : grid0.Coords) (a3 : Memref sig .tc .vmem S1024x512 .f32) (h3 : a3.IsWhole) (a4 : Memref sig .tc .vmem S1x512 .f32) (h4 : a4.IsWhole) (a5 : Memref sig .tc .vmem S512x1024 .f32) (h5 : a5.IsWhole) (a6 : Memref sig .tc .vmem S1024x1024 .f32) (h6 : a6.IsWhole) (a7 : Memref sig .tc .vmem S1024x1024 .f32) (h7 : a7.IsWhole) (hc0 : ¬cond0_0 i) (hc1 : cond0_1 i)
    (x0 : Vec F S1024x512 .f32) (x1 : Vec F S1x512 .f32) (x2 : Vec F S512x1024 .f32) (xs0 : Vec F S1024x1024 .f32) :
    out0_C_3 c i a3 h3 a4 h4 a5 h5 a6 h6 a7 h7 hc0 hc1 x0 x1 x2 xs0 = k0_pay2 x0 x1 x2 xs0 := by
  unfold out0_C_3
  rw [View.read_writes_eq_canon _ _ _ (cover0_C_3 c i a3 h3 a4 h4 a5 h5 a6 h6 a7 h7 hc0 hc1 x0 x1 x2 xs0)]
  unfold kernelRun0_C
  dsimp only
  sl_unfold_words
  rw [View.canon_unit_zero origin, View.readCov_unit_zero (S := S1024x1024) _ origin]
  simp only [View.readAt_eq_ld, h3.read_unread, h4.read_unread, h5.read_unread, h7.read_unread,
    View.ld_unit_zero (S := S1024x512) origin, View.ld_unit_zero (S := S1x512) origin,
    View.ld_unit_zero (S := S512x1024) origin, View.ld_unit_zero (S := S1024x1024) origin]

end Cert.KernelIdeal.Pieces

end
-- ==== Proof.LibMatmulAt.lean ====
/-
  A matrix product accumulated into the zero block, at the ideal values, read at one entry: for an m×k matrix times a
  k×n matrix (the left operand contracted along its columns, the right along its rows, no batch axis) the entry at
  row `a`, column `b` is the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The product of an m×k by a k×n matrix into the zero block, read at entry (a, b). -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.StepValue.lean ====
/-
  One grid point's arithmetic, read at an entry, on the extended reals.

  At a grid point the kernel body holds a 1024×512 block `x0` of the left matrix, the matching 1×512 stretch `x1` of the
  row of scales, a 512×1024 block `x2` of the right matrix and the running 1024×1024 accumulator `v`. It scales the
  columns of `x0` by `x1`, multiplies the result with `x2` into a zero block, and adds the accumulator. A change of
  float format is the identity on the extended reals and a product into the zero block is the plain sum over the
  contracted coordinate, so entry (a, b) of what the body stores is
      v (a, b) + ∑ c < 512, (x0 (a, c) · x1 (0, c)) · x2 (c, b).
  The block the body stores at the first point of a run of eight is the zero block.
-/
import proofs.«146171_j49589692400414_1_alg».proof.Proof.Gen.KernelIdeal.Skeleton
import proofs.«146171_j49589692400414_1_alg».proof.Proof.LibMatmulAt
import Idealize.ShloMosaic.Lib.Pipeline.Value
import Idealize.ShloMosaic.Lib.ValueIdx
import Idealize.ShloMosaic.PureOps.Ideal.Laws

noncomputable section

open scoped BigOperators

namespace Cert.KernelIdeal.Step

open Cert.KernelIdeal Cert.KernelIdeal.Gen Idealize.ShloMosaic Idealize.ShloMosaic.ValueIdx

/-- The 1×512 stretch of scales, broadcast down the 1024 rows, reads at (a, c) the scale of column c. -/
theorem scaleRow_apply (x1 : Vec Ideal S1x512 .f32) (a : Fin 1024) (c : Fin 512) :
    broadcastTo S1024x512 (shapeCast S1x512 x1 shapeCasts_S1x512_S1x512) broadcasts_S1x512_S1024x512 (ix2 a c)
      = x1 (ix2 0 c) := by
  rw [shapeCast_self]
  exact broadcastTo_apply _ _ _ (ix2 0 c) (fun ax => by
    match ax with
    | ⟨0, _⟩ => show (0 : Nat) = if (1 : Nat) = 1 then 0 else _; rw [if_pos rfl]
    | ⟨1, _⟩ => show c.val = if (512 : Nat) = 1 then 0 else c.val; rw [if_neg (by decide)])

/-- The zero block reads 0 everywhere. -/
theorem zeroBlock_apply (j : S1024x1024.Idx) : k0_pay1 (F := Ideal) j = 0 := by
  unfold k0_pay1
  rw [shapeCast_self]
  exact Ideal.ofBits_zero_f32

/-- Entry (a, b) of what the body stores: the accumulator's entry plus the 512-term sum of scaled products. -/
theorem step_apply (x0 : Vec Ideal S1024x512 .f32) (x1 : Vec Ideal S1x512 .f32)
    (x2 : Vec Ideal S512x1024 .f32) (v : Vec Ideal S1024x1024 .f32) (a b : Fin 1024) :
    k0_pay2 (F := Ideal) x0 x1 x2 v (ix2 a b)
      = v (ix2 a b) + ∑ c : Fin 512, (x0 (ix2 a c) * x1 (ix2 0 c)) * x2 (ix2 c b) := by
  unfold k0_pay2
  rw [shapeCast_self, addf_apply]
  refine congrArg (v (ix2 a b) + ·) ?_
  refine (Cert.Lib.matmul_plain_zero_apply _ none _ _ a b).trans ?_
  refine Finset.sum_congr rfl fun c _ => ?_
  rw [truncf_apply, truncf_apply, mulf_apply, scaleRow_apply]

end Cert.KernelIdeal.Step

end
-- ==== Proof.Acc.lean ====
/-
  The accumulator after each grid point, entry by entry, on the extended reals.

  The grid is 4 × 16 × 8, the last axis innermost: the eight consecutive points 8q, …, 8q + 7 share one output block and
  walk the eight 512-wide stretches of the contracted axis. Point p contributes to entry (a, b) of the accumulator its
  addend
      ∑ k < 512, (U-block(p) (a, k) · scale-stretch(p) (0, k)) · V-block(p) (k, b),
  the blocks being what the three input windows hold at p. The accumulator is reset to the zero block at the first point
  of each run of eight and every point adds its addend to what the point before left, so after point t it holds at (a, b)
  the sum of the addends of the points 8·(t / 8), …, t; only 0 + x = x and the associativity of + are used, which hold
  for all extended reals. At the last point of a run the output block is the accumulator, read back: the sum of all
  eight addends of the run.
-/
import proofs.«146171_j49589692400414_1_alg».proof.Proof.Gen.KernelIdeal.Value
import proofs.«146171_j49589692400414_1_alg».proof.Proof.Pieces
import proofs.«146171_j49589692400414_1_alg».proof.Proof.StepValue

noncomputable section

open scoped BigOperators

namespace Cert.KernelIdeal.Acc

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The block of the left matrix that window 0 holds at point `t`, -/
def blockU (c : Dev nD) (t : Fin cfg0.N) : Vec Ideal S1024x512 .f32 := iblk m c 0 t
/-- the stretch of the row of scales that window 1 holds there, -/
def blockS (c : Dev nD) (t : Fin cfg0.N) : Vec Ideal S1x512 .f32 := iblk m c 1 t
/-- and the block of the right matrix that window 2 holds there. -/
def blockV (c : Dev nD) (t : Fin cfg0.N) : Vec Ideal S512x1024 .f32 := iblk m c 2 t

/-- What grid point `t` adds to entry (a, b) of the accumulator. -/
def term (c : Dev nD) (t : Fin cfg0.N) (a b : Fin 1024) : EReal :=
  ∑ k : Fin 512, (blockU m c t (ix2 a k) * blockS m c t (ix2 0 k)) * blockV m c t (ix2 k b)

/-- The same for any natural number `p`: nothing past the grid. -/
def addend (c : Dev nD) (p : ℕ) (a b : Fin 1024) : EReal :=
  if h : p < cfg0.N then term m c ⟨p, h⟩ a b else 0

/-- One step of the body at point `n` over an accumulator `v` adds the point's addend, entry by entry. -/
theorem step_at (c : Dev nD) (n : ℕ) (h : n < cfg0.N) (v : Vec Ideal S1024x1024 .f32) (i : S1024x1024.Idx) :
    k0_pay2 (F := Ideal) (iblk m c 0 ⟨n, h⟩) (iblk m c 1 ⟨n, h⟩) (iblk m c 2 ⟨n, h⟩) v i
      = v i + addend m c n (i 0) (i 1) := by
  obtain ⟨a, b, rfl⟩ : ∃ (a b : Fin 1024), i = ix2 a b := ⟨i 0, i 1, eq_ix2 i⟩
  refine (Step.step_apply (iblk m c 0 ⟨n, h⟩) (iblk m c 1 ⟨n, h⟩) (iblk m c 2 ⟨n, h⟩) v a b).trans ?_
  show v (ix2 a b) + _ = v (ix2 a b) + addend m c n a b
  unfold addend
  rw [dif_pos h]
  rfl

/-- At the first point of a run of eight the accumulator is reset: it ends at that point's addend alone. -/
theorem reset_at (c : Dev nD) (n : ℕ) (h0 : n % 8 = 0) (h : n < cfg0.N) (i : S1024x1024.Idx) :
    Value.scAt0_0 m c n h (VS0_0.read (Elt Ideal) VS0_0.junk) i = 0 + addend m c n (i 0) (i 1) := by
  have h1 : ¬n % 8 = 7 := by omega
  unfold Value.scAt0_0
  rw [dif_pos h0, dif_neg h1, Pieces.scratch_first, step_at, Step.zeroBlock_apply]

/-- At every other point of the run the accumulator gains that point's addend. -/
theorem gain_at (c : Dev nD) (n : ℕ) (h0 : ¬n % 8 = 0) (h : n < cfg0.N) (v : Vec Ideal S1024x1024 .f32)
    (i : S1024x1024.Idx) :
    Value.scAt0_0 m c n h v i = v i + addend m c n (i 0) (i 1) := by
  unfold Value.scAt0_0
  rw [dif_neg h0]
  by_cases h1 : n % 8 = 7
  · rw [dif_pos h1, Pieces.scratch_last, step_at]
  · rw [dif_neg h1, Pieces.scratch_middle, step_at]

/-- After point `t` the accumulator holds, at each entry, the sum of the addends of the points of its run up to `t`. -/
theorem scratch_apply (c : Dev nD) (t : Fin cfg0.N) (i : S1024x1024.Idx) :
    (outsAt0 m c t.val t.isLt).2 i
      = ∑ s ∈ Finset.range (t.val % 8 + 1), addend m c (8 * (t.val / 8) + s) (i 0) (i 1) := by
  rw [Value.soutsAt0_0_eq m c t]
  have hb : (8 * (t.val / 8)) % 8 = 0 := Nat.mul_mod_right 8 _
  refine (Pipeline.accAt_add_apply (fun n h => Value.scAt0_0 m c n h (VS0_0.read (Elt Ideal) VS0_0.junk)) (Value.scAt0_0 m c)
    (fun _ => (0 : EReal)) (fun p j => addend m c p (j 0) (j 1)) (8 * (t.val / 8)) 7
    (fun h j => reset_at m c _ hb h j)
    (fun n h v j hlt hle => gain_at m c n (by omega) h v j)
    (t.val % 8) (by omega) _ i).trans (zero_add _)

/-- At the last point of a run of eight the output block is the accumulator after that point. -/
theorem output_eq_scratch (c : Dev nD) (t : Fin cfg0.N) (h7 : t.val % 8 = 7) :
    (outsAt0 m c t.val t.isLt).1 = (outsAt0 m c t.val t.isLt).2 := by
  have h0 : ¬t.val % 8 = 0 := by omega
  rw [outsAt0_C m c t h0 h7]
  dsimp only
  rw [Pieces.output_last, Pieces.scratch_last]

/-- So the block written back at the last point of a run holds, at each entry, the sum of the run's eight addends. -/
theorem output_apply (c : Dev nD) (t : Fin cfg0.N) (h7 : t.val % 8 = 7) (i : S1024x1024.Idx) :
    (outsAt0 m c t.val t.isLt).1 i = ∑ s ∈ Finset.range 8, addend m c (8 * (t.val / 8) + s) (i 0) (i 1) := by
  rw [output_eq_scratch m c t h7, scratch_apply, h7]

end Cert.KernelIdeal.Acc

end
-- ==== Proof.LibBlockSum.lean ====
/-
  A sum over `K = kt * n` consecutive positions, cut into `kt` blocks of `n` positions each, is the sum over the
  blocks of the sums inside each block: position `k * n + i` is position `i` of block `k`. Stated for any
  commutative additive monoid (the extended reals among them: no finiteness is asked).
-/
import Mathlib.Algebra.BigOperators.Fin
import Mathlib.Logic.Equiv.Fin.Basic

open scoped BigOperators

namespace Cert.Lib

/-- Position `i` of block `k` is below `kt * n`. -/
theorem blockPos_lt {kt n K : ℕ} (h : kt * n = K) (k : Fin kt) (i : Fin n) : k.val * n + i.val < K := by
  have hk := k.isLt
  have hi := i.isLt
  calc k.val * n + i.val < k.val * n + n := by omega
    _ = (k.val + 1) * n := by rw [Nat.succ_mul]
    _ ≤ kt * n := Nat.mul_le_mul_right _ hk
    _ = K := h

/-- The sum over all `K = kt * n` positions is the sum over the `kt` blocks of the sums over each block's `n` positions. -/
theorem sum_blocks {M : Type*} [AddCommMonoid M] {kt n K : ℕ} (h : kt * n = K) (f : Fin K → M) :
    ∑ c : Fin K, f c = ∑ k : Fin kt, ∑ i : Fin n, f ⟨k.val * n + i.val, blockPos_lt h k i⟩ := by
  subst h
  rw [← Equiv.sum_comp finProdFinEquiv f, Fintype.sum_prod_type]
  refine Finset.sum_congr rfl fun k _ => Finset.sum_congr rfl fun i _ => ?_
  refine congrArg f (Fin.ext ?_)
  show i.val + n * k.val = k.val * n + i.val
  rw [Nat.mul_comm, Nat.add_comm]

end Cert.Lib
-- ==== Proof.Blocks.lean ====
/-
  The eight addends of a run are the whole contraction.

  Grid point t = 128·I + 8·J + K of the 4 × 16 × 8 grid holds rows 1024·I … of the left matrix and columns 512·K … of
  it, the stretch 512·K … of the row of scales, and rows 512·K …, columns 1024·J … of the right matrix. So the addend of
  the point 8·q + s of a run (s < 8) at entry (a, b) is the stretch s·512 … s·512 + 511 of
      ∑ x < 4096, (U (1024·I + a, x) · scale (0, x)) · V (x, 1024·J + b),
  and the eight stretches, summed, are that sum: a sum over 8·512 positions cut into eight blocks of 512. No property
  of the extended reals beyond the commutative-monoid laws of + is used.
-/
import proofs.«146171_j49589692400414_1_alg».proof.Proof.Acc
import proofs.«146171_j49589692400414_1_alg».proof.Proof.LibBlockSum

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The windows' block indices in closed form, decided over the grid's 512 points. -/
theorem index_facts : ∀ t : Fin cfg0.N,
    win0_0.index t (0 : Fin 2) = t.val / 128 ∧ win0_0.index t (1 : Fin 2) = t.val % 8
    ∧ win0_1.index t (0 : Fin 2) = 0 ∧ win0_1.index t (1 : Fin 2) = t.val % 8
    ∧ win0_2.index t (0 : Fin 2) = t.val % 8 ∧ win0_2.index t (1 : Fin 2) = t.val / 8 % 16
    ∧ win0_3.index t (0 : Fin 2) = t.val / 128 ∧ win0_3.index t (1 : Fin 2) = t.val / 8 % 16 :=
  (by decide +kernel : ∀ t : Fin grid0.N, _)

theorem lt_N (t : Fin cfg0.N) : t.val < 512 := lt_of_lt_of_eq t.isLt N_0

/-- The row of the arrays that row `a` of point `t`'s blocks is, -/
def rowOf (t : Fin cfg0.N) (a : Fin 1024) : Fin 4096 :=
  ⟨1024 * (t.val / 128) + a.val, by have := lt_N t; have := a.isLt; omega⟩
/-- the column that column `b` of its blocks is, -/
def colOf (t : Fin cfg0.N) (b : Fin 1024) : Fin 16384 :=
  ⟨1024 * (t.val / 8 % 16) + b.val, by have := b.isLt; omega⟩
/-- and the contracted position that position `k` of stretch `s` is. -/
def midOf (s : Fin 8) (k : Fin 512) : Fin 4096 := ⟨s.val * 512 + k.val, Cert.Lib.blockPos_lt (by norm_num) s k⟩

/-- The left matrix, -/
def matU (c : Dev nD) : Vec Ideal S4096x4096 .f32 := m ((c : Thread nD τ).loc main_arg0)
/-- the right matrix, -/
def matV (c : Dev nD) : Vec Ideal S4096x16384 .f32 := m ((c : Thread nD τ).loc main_arg2)
/-- and the row of scales as the region finds it. -/
def scaleRow (c : Dev nD) : Vec Ideal S1x4096 .f32 := V m c main_v4

/-- Window 0's block at `t` reads the left matrix at the block's place. -/
theorem blockU_apply (c : Dev nD) (t : Fin cfg0.N) (s : Fin 8) (hs : t.val % 8 = s.val) (a : Fin 1024) (k : Fin 512) :
    Acc.blockU m c t (ix2 a k) = matU m c (ix2 (rowOf t a) (midOf s k)) := by
  obtain ⟨e00, e01, -⟩ := index_facts t
  show V m c main_arg0 (((cfg0.win 0).blk t).view.emb (ix2 a k)) = m ((c : Thread nD τ).loc main_arg0) _
  rw [V_main_arg0]
  refine congrArg _ (funext fun ax => Fin.ext ?_)
  match ax with
  | ⟨0, _⟩ => show win0_0.index t (0 : Fin 2) * 1024 + 1 * a.val = 1024 * (t.val / 128) + a.val; omega
  | ⟨1, _⟩ => show win0_0.index t (1 : Fin 2) * 512 + 1 * k.val = s.val * 512 + k.val; rw [e01, hs]; omega

/-- Window 1's block at `t` reads the row of scales at the stretch's place. -/
theorem blockS_apply (c : Dev nD) (t : Fin cfg0.N) (s : Fin 8) (hs : t.val % 8 = s.val) (k : Fin 512) :
    Acc.blockS m c t (ix2 0 k) = scaleRow m c (ix2 0 (midOf s k)) := by
  obtain ⟨-, -, e10, e11, -⟩ := index_facts t
  show V m c main_v4 (((cfg0.win 1).blk t).view.emb (ix2 0 k)) = V m c main_v4 _
  refine congrArg _ (funext fun ax => Fin.ext ?_)
  match ax with
  | ⟨0, _⟩ => show win0_1.index t (0 : Fin 2) * 1 + 1 * 0 = 0; omega
  | ⟨1, _⟩ => show win0_1.index t (1 : Fin 2) * 512 + 1 * k.val = s.val * 512 + k.val; rw [e11, hs]; omega

/-- Window 2's block at `t` reads the right matrix at the block's place. -/
theorem blockV_apply (c : Dev nD) (t : Fin cfg0.N) (s : Fin 8) (hs : t.val % 8 = s.val) (k : Fin 512) (b : Fin 1024) :
    Acc.blockV m c t (ix2 k b) = matV m c (ix2 (midOf s k) (colOf t b)) := by
  obtain ⟨-, -, -, -, e20, e21, -⟩ := index_facts t
  show V m c main_arg2 (((cfg0.win 2).blk t).view.emb (ix2 k b)) = m ((c : Thread nD τ).loc main_arg2) _
  rw [V_main_arg2]
  refine congrArg _ (funext fun ax => Fin.ext ?_)
  match ax with
  | ⟨0, _⟩ => show win0_2.index t (0 : Fin 2) * 512 + 1 * k.val = s.val * 512 + k.val; rw [e20, hs]; omega
  | ⟨1, _⟩ => show win0_2.index t (1 : Fin 2) * 1024 + 1 * b.val = 1024 * (t.val / 8 % 16) + b.val; omega

/-- The summand of the whole contraction at row `r`, column `q`, position `x`. -/
def summand (c : Dev nD) (r : Fin 4096) (q : Fin 16384) (x : Fin 4096) : EReal :=
  (matU m c (ix2 r x) * scaleRow m c (ix2 0 x)) * matV m c (ix2 x q)

/-- The addend of the `s`-th point of the run that ends at `t` is the `s`-th stretch of the whole contraction. -/
theorem addend_eq (c : Dev nD) (t : Fin cfg0.N) (s : Fin 8) (a b : Fin 1024) :
    Acc.addend m c (8 * (t.val / 8) + s.val) a b = ∑ k : Fin 512, summand m c (rowOf t a) (colOf t b) (midOf s k) := by
  have hN := lt_N t
  have hp : 8 * (t.val / 8) + s.val < cfg0.N := lt_of_lt_of_eq (by have := s.isLt; omega : 8 * (t.val / 8) + s.val < 512) N_0.symm
  unfold Acc.addend
  rw [dif_pos hp]
  unfold Acc.term
  refine Finset.sum_congr rfl fun k _ => ?_
  have hs : (⟨8 * (t.val / 8) + s.val, hp⟩ : Fin cfg0.N).val % 8 = s.val := by show (8 * (t.val / 8) + s.val) % 8 = s.val; have := s.isLt; omega
  have hr : rowOf ⟨8 * (t.val / 8) + s.val, hp⟩ a = rowOf t a := Fin.ext (by show 1024 * ((8 * (t.val / 8) + s.val) / 128) + a.val = 1024 * (t.val / 128) + a.val; have := s.isLt; omega)
  have hc : colOf ⟨8 * (t.val / 8) + s.val, hp⟩ b = colOf t b := Fin.ext (by show 1024 * ((8 * (t.val / 8) + s.val) / 8 % 16) + b.val = 1024 * (t.val / 8 % 16) + b.val; have := s.isLt; omega)
  rw [blockU_apply m c _ s hs, blockS_apply m c _ s hs, blockV_apply m c _ s hs, hr, hc]
  rfl

/-- The eight addends of the run that ends at `t`, summed, are the whole contraction. -/
theorem run_sum (c : Dev nD) (t : Fin cfg0.N) (a b : Fin 1024) :
    ∑ s ∈ Finset.range 8, Acc.addend m c (8 * (t.val / 8) + s) a b
      = ∑ x : Fin 4096, summand m c (rowOf t a) (colOf t b) x := by
  rw [Finset.sum_range, Cert.Lib.sum_blocks (kt := 8) (n := 512) (by norm_num) (summand m c (rowOf t a) (colOf t b))]
  exact Finset.sum_congr rfl fun s _ => addend_eq m c t s a b

end Cert.KernelIdeal.Blocks

end
-- ==== Proof.Spec.lean ====
/-
  The function both programs compute, on the extended reals.

  For a 4096×4096 matrix `U`, a vector `s` of 4096 scales and a 4096×16384 matrix `W`, entry (r, q) of the
  column-scaled product is
      ∑ x < 4096, (U (r, x) · s x) · W (x, q).
  The factors are multiplied in this order and the terms added over all 4096 positions; nothing is assumed finite.
-/
import Idealize.ShloMosaic.Lib.ValueIdx
import Idealize.ShloMosaic.PureOps.Ideal

noncomputable section

open scoped BigOperators

namespace Cert.Spec

open Idealize.ShloMosaic Idealize.ShloMosaic.ValueIdx

/-- The column-scaled product `(U · diag s) · W`, entry by entry. -/
def scaledProduct (U : FVec Ideal ⟨2, ![4096, 4096]⟩ .f32) (s : FVec Ideal ⟨1, ![4096]⟩ .f32)
    (W : FVec Ideal ⟨2, ![4096, 16384]⟩ .f32) : FVec Ideal ⟨2, ![4096, 16384]⟩ .f32 :=
  fun i => ∑ x : Fin 4096, (U (ix2 ⟨(i 0).val, idx2_lt0 i⟩ x) * s (ix1 x)) * W (ix2 x ⟨(i 1).val, idx2_lt1 i⟩)

end Cert.Spec

end
-- ==== Proof.Result.lean ====
/-
  The kernel's result array is the column-scaled product.

  Before the region the host code builds the vector of scales `max (S + 1·δ, 0)` and lays it out as one row; the region
  finds that row in the second window's array. The output window's block is written back at the last point of each run
  of eight, and what is written there is, entry by entry, the whole 4096-term contraction at the block's place in the
  array; the 4 × 16 output blocks tile the 4096×16384 array, so after the run the array holds the product everywhere.
-/
import proofs.«146171_j49589692400414_1_alg».proof.Proof.Blocks
import proofs.«146171_j49589692400414_1_alg».proof.Proof.Spec
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The vector of scales the host code computes: `max (S + 1·δ, 0)`, entry by entry. -/
def scales (x1 x3 : FVec Ideal S4096 .f32) : FVec Ideal S4096 .f32 :=
  maximumf (addf x1 (mulf (broadcastInDim S4096 ![] bcast_S_S4096 (constant (F := Ideal) S_ .f32 0x3F800000#32)) x3))
    (broadcastInDim S4096 ![] bcast_S_S4096 (constant (F := Ideal) S_ .f32 0x00000000#32))

/-- The region finds, in its second window's array, the scales laid out as one row. -/
theorem scaleRow_eq (c : Dev nD) :
    Blocks.scaleRow m c
      = shapeCast S1x4096 (scales (m ((c : Thread nD τ).loc main_arg1)) (m ((c : Thread nD τ).loc main_arg3))) shapeCasts_S4096_S1x4096 := by
  unfold Blocks.scaleRow
  dsimp only [Gen.V]
  simp only [hostOps0, hostOps0_1, hostOps0_2, List.flatten_cons, List.flatten_nil, List.append_nil, List.cons_append, List.nil_append]
  after_results
  rfl

/-- Position `x` of that row is entry `x` of the vector. -/
theorem scaleRow_apply (c : Dev nD) (x : Fin 4096) :
    Blocks.scaleRow m c (ix2 0 x) = scales (m ((c : Thread nD τ).loc main_arg1)) (m ((c : Thread nD τ).loc main_arg3)) (ix1 x) := by
  rw [scaleRow_eq]
  exact shapeCast_apply _ _ (ix2 0 x) (ix1 x) (by
    rw [Shape.rowMajor_val_one, Shape.rowMajor_val_two]
    show x.val = (0 : Nat) * 4096 + x.val
    omega)

/-- The array the kernel's result buffer ends holding. -/
def product (c : Dev nD) : Vec Ideal S4096x16384 .f32 :=
  Cert.Spec.scaledProduct (m ((c : Thread nD τ).loc main_arg0))
    (scales (m ((c : Thread nD τ).loc main_arg1)) (m ((c : Thread nD τ).loc main_arg3)))
    (m ((c : Thread nD τ).loc main_arg2))

/-- An entry of it is the whole contraction over the region's arrays. -/
theorem product_apply (c : Dev nD) (r : Fin 4096) (q : Fin 16384) :
    product m c (ix2 r q) = ∑ x : Fin 4096, Blocks.summand m c r q x := by
  unfold product Cert.Spec.scaledProduct
  refine Finset.sum_congr rfl fun x _ => ?_
  unfold Blocks.summand
  rw [scaleRow_apply]
  rfl

/-- What the last point of a run writes back is its block of the product. -/
theorem flushed_eq (c : Dev nD) (t : Fin cfg0.N) (hf : (cfg0.win 3).flush t = true) :
    (dats m 0 c).flushed 3 t = ((cfg0.win 3).blk t).view.read (Elt Ideal) (product m c) := by
  have h7 : t.val % 8 = 7 := (flush0_3 t).mp hf
  obtain ⟨-, -, -, -, -, -, e30, e31⟩ := Blocks.index_facts t
  rw [Value.flushed3]
  funext y
  obtain ⟨a, b, rfl⟩ : ∃ (a b : Fin 1024), y = ix2 a b := ⟨y 0, y 1, eq_ix2 y⟩
  show (outsAt0 m c t.val t.isLt).1 (ix2 a b) = product m c (((cfg0.win 3).blk t).view.emb (ix2 a b))
  have he : ((cfg0.win 3).blk t).view.emb (ix2 a b) = ix2 (Blocks.rowOf t a) (Blocks.colOf t b) := by
    funext ax; apply Fin.ext
    match ax with
    | ⟨0, _⟩ => show win0_3.index t (0 : Fin 2) * 1024 + 1 * a.val = 1024 * (t.val / 128) + a.val; omega
    | ⟨1, _⟩ => show win0_3.index t (1 : Fin 2) * 1024 + 1 * b.val = 1024 * (t.val / 8 % 16) + b.val; omega
  rw [he, product_apply, Acc.output_apply m c t h7]
  exact Blocks.run_sum m c t a b

/-- An index of the array is in point `t`'s block iff each coordinate is in the block's range on its axis. -/
theorem mem_block (t : Fin cfg0.N) (i : S4096x16384.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v5).slice (win0_3.rect t)).set ↔ _
  rw [View.set_slice_whole, Rect.mem_set_unit]
  exact Iff.rfl

/-- Every entry of the array lies in the block some run's last point writes back. -/
theorem covered (i : S4096x16384.Idx) :
    ∃ t : Fin cfg0.N, (cfg0.win 3).flush t = true ∧ i ∈ ((cfg0.win 3).blk t).view.set := by
  have h0 : (i 0).val < 4096 := idx2_lt0 i
  have h1 : (i 1).val < 16384 := idx2_lt1 i
  have hlt : 128 * ((i 0).val / 1024) + 8 * ((i 1).val / 1024) + 7 < cfg0.N :=
    lt_of_lt_of_eq (by omega : 128 * ((i 0).val / 1024) + 8 * ((i 1).val / 1024) + 7 < 512) N_0.symm
  refine ⟨⟨128 * ((i 0).val / 1024) + 8 * ((i 1).val / 1024) + 7, hlt⟩, (flush0_3 _).mpr (by show (128 * ((i 0).val / 1024) + 8 * ((i 1).val / 1024) + 7) % 8 = 7; omega), ?_⟩
  obtain ⟨-, -, -, -, -, -, e30, e31⟩ := Blocks.index_facts ⟨128 * ((i 0).val / 1024) + 8 * ((i 1).val / 1024) + 7, hlt⟩
  rw [mem_block]
  intro a
  match a with
  | ⟨0, _⟩ =>
    show win0_3.index _ (0 : Fin 2) * 1024 ≤ (i 0).val ∧ (i 0).val < win0_3.index _ (0 : Fin 2) * 1024 + 1024
    rw [e30]
    show (128 * ((i 0).val / 1024) + 8 * ((i 1).val / 1024) + 7) / 128 * 1024 ≤ (i 0).val ∧ (i 0).val < (128 * ((i 0).val / 1024) + 8 * ((i 1).val / 1024) + 7) / 128 * 1024 + 1024
    omega
  | ⟨1, _⟩ =>
    show win0_3.index _ (1 : Fin 2) * 1024 ≤ (i 1).val ∧ (i 1).val < win0_3.index _ (1 : Fin 2) * 1024 + 1024
    rw [e31]
    show (128 * ((i 0).val / 1024) + 8 * ((i 1).val / 1024) + 7) / 8 % 16 * 1024 ≤ (i 1).val ∧ (i 1).val < (128 * ((i 0).val / 1024) + 8 * ((i 1).val / 1024) + 7) / 8 % 16 * 1024 + 1024
    omega

/-- After the run the result array holds the product. -/
theorem final (c : Dev nD) : (dats m 0 c).arrAt 3 cfg0.N = product m c :=
  (dats m 0 c).arrAt_eq_of_cover 3 (product m c) (fun t hf => flushed_eq m c t hf) covered

/-- The kernel's run: it terminates with the result buffer at the product and the arguments unchanged. -/
theorem run : θ_run defs (onTc (τ := τ) (main (F := Ideal))) ⟨m, fun _ => 0, ρ⟩ fun r => ∀ c : Dev nD,
      r.2.mem ((c : Thread nD τ).loc main_v5) = product m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Result

end
-- ==== Proof.RefValue.lean ====
/-
  The reference's result is the column-scaled product.

  The reference lays the vector of scales out as a 1×4096 row, repeats that row down the 4096 rows, multiplies the left
  matrix by it entry by entry, and contracts the result with the right matrix. Read at an entry, the scaled matrix is
  `U (r, x) · s x`, and the contraction is the sum over all 4096 positions of its entries times the right matrix's:
  the specification's sum, term for term.
-/
import proofs.«146171_j49589692400414_1_alg».proof.Proof.Gen.ReferenceIdeal.Read
import proofs.«146171_j49589692400414_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The scaled matrix at (r, x) is the left matrix's entry times the scale of column x. -/
theorem scaled_apply (x0 : (⟨S4096x4096, .f32⟩ : BufTy).Contents (Elt Ideal))
    (x1 x3 : (⟨S4096, .f32⟩ : BufTy).Contents (Elt Ideal)) (r x : Fin 4096) :
    val_main_v6 (F := Ideal) x0 x1 x3 (ix2 r x) = x0 (ix2 r x) * val_main_v3 (F := Ideal) x1 x3 (ix1 x) := by
  rw [val_main_v6_apply, val_main_v5_apply, val_main_v4_apply]
  have e : idx_main_v4 (idx_main_v5 (ix2 r x)) = ix1 x := funext fun a => by
    match a with
    | ⟨0, _⟩ => rfl
  rw [e]
  rfl

/-- The reference's result is the specification at its scales. -/
theorem result_eq (x0 : (⟨S4096x4096, .f32⟩ : BufTy).Contents (Elt Ideal))
    (x1 : (⟨S4096, .f32⟩ : BufTy).Contents (Elt Ideal)) (x2 : (⟨S4096x16384, .f32⟩ : BufTy).Contents (Elt Ideal))
    (x3 : (⟨S4096, .f32⟩ : BufTy).Contents (Elt Ideal)) :
    val_main_v7 (F := Ideal) x0 x1 x2 x3 = Cert.Spec.scaledProduct x0 (val_main_v3 (F := Ideal) x1 x3) x2 := by
  funext i
  rw [val_main_v7_apply]
  unfold Cert.Spec.scaledProduct
  refine Finset.sum_congr rfl fun x _ => ?_
  have el : lidx_main_v7 i x = ix2 ⟨(i 0).val, idx2_lt0 i⟩ x := funext fun a => by
    match a with
    | ⟨0, _⟩ => rfl
    | ⟨1, _⟩ => rfl
  have er : ridx_main_v7 i x = ix2 x ⟨(i 1).val, idx2_lt1 i⟩ := funext fun a => by
    match a with
    | ⟨0, _⟩ => rfl
    | ⟨1, _⟩ => rfl
  rw [el, er, scaled_apply]

end Cert.ReferenceIdeal.RefValue

end
-- ==== Proof.lean ====
/-
  The certificate's claims, assembled.

  Both programs compute the column-scaled product (U · diag s) · W with s = max (S + 1·δ, 0): entry (r, q) is the sum over
  the 4096 positions x of (U (r, x) · s x) · W (x, q). The kernel walks the contracted axis in eight stretches of 512,
  adding each stretch's partial sum to an accumulator that starts from zero, and writes the accumulator out after the
  eighth; the reference forms the scaled matrix and contracts it in one sum. On the extended reals a format change is the
  identity, 0 + x = x, and a sum over 8·512 positions is the sum of its eight stretches, so the two results agree entry
  by entry, with no finiteness assumed. The kernel's idealization rewrote nothing. The three frames are the generated
  frame runs.
-/
import proofs.«146171_j49589692400414_1_alg».proof.Defs
import proofs.«146171_j49589692400414_1_alg».proof.Proof.Gen.Kernel
import proofs.«146171_j49589692400414_1_alg».proof.Proof.Gen.Kernel.Frame
import proofs.«146171_j49589692400414_1_alg».proof.Proof.Gen.KernelIdeal
import proofs.«146171_j49589692400414_1_alg».proof.Proof.Gen.KernelIdeal.Frame
import proofs.«146171_j49589692400414_1_alg».proof.Proof.Gen.ReferenceIdeal
import proofs.«146171_j49589692400414_1_alg».proof.Proof.Gen.Pre_finite_inputs
import proofs.«146171_j49589692400414_1_alg».proof.Proof.Gen.KernelIdeal.Value
import proofs.«146171_j49589692400414_1_alg».proof.Proof.Gen.ReferenceIdeal.Run
import proofs.«146171_j49589692400414_1_alg».proof.Proof.Gen.ReferenceIdeal.Read
import proofs.«146171_j49589692400414_1_alg».proof.Proof.Result
import proofs.«146171_j49589692400414_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result dropped, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The vector of scales is spelled the same way by both programs. -/
theorem scales_eq (x1 x3 : FVec Ideal Cert.KernelIdeal.S4096 .f32) :
    Cert.ReferenceIdeal.Read.val_main_v3 (F := Ideal) x1 x3 = Cert.KernelIdeal.Result.scales x1 x3 := rfl

/-- From memories that agree on the arguments both programs end with the column-scaled product in their result. -/
theorem algebraic : Cert.algebraic_KernelIdeal_ReferenceIdeal := by
  intro m ρ m' ρ' _ hagree
  refine ⟨fun c => Cert.KernelIdeal.Result.product m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, scales_eq,
    (hagree c).1, (hagree c).2.1, (hagree c).2.2.1, (hagree c).2.2.2.1]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
